-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S4096x1024 .f32) (main_arg1 : FVec F S4096x1024 .f32) (main_arg2 : FVec F S4096x1024 .f32) (main_arg3 : FVec F S4096x4096 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S4096x1024 : Shape := ⟨2, ![4096, 1024]⟩
abbrev S4096x4096 : Shape := ⟨2, ![4096, 4096]⟩
abbrev S1024x4096 : Shape := ⟨2, ![1024, 4096]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩

abbrev nBuf : Space → Nat
  | .hbm => 8
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S4096x1024, .bf16⟩
  | .hbm, ⟨5, _⟩ => ⟨S1024x4096, .bf16⟩
  | .hbm, ⟨6, _⟩ => ⟨S4096x1024, .bf16⟩
  | .hbm, ⟨7, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x4096, .bf16⟩
  | .local _ .vmem, ⟨3, _⟩ => ⟨S4096x1024, .bf16⟩
  | .local _ .vmem, ⟨4, _⟩ => ⟨S256x4096, .f32⟩
  | .local _ .vmem, ⟨5, _⟩ => ⟨S256x4096, .f32⟩
  | .local _ .vmem, ⟨6, _⟩ => ⟨S256x1024, .f32⟩
  | .local _ .vmem, ⟨7, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bitsLt_bf16_f32 : FTy.bits .bf16 < FTy.bits .f32
  transposes_S4096x1024_S1024x4096_1_0 : S4096x1024.Transposes [1, 0] S1024x4096
  inb_S256x1024_S256x1024_0_0 : ∀ a, (![0, 0] : Fin 2 → Nat) a + S256x1024.size a ≤ S256x1024.size a
  h_S256x1024 : 0 < S256x1024.numel
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S256x4096_S256x4096_0_0 : ∀ a, (![0, 0] : Fin 2 → Nat) a + S256x4096.size a ≤ S256x4096.size a
  h_S256x4096 : 0 < S256x4096.numel
  reduces_S256x4096_S256 : S256x4096.Reduces [1] S256
  shapeCasts_S256_S256x1 : S256.ShapeCasts S256x1
  broadcasts_S256x1_S256x4096 : S256x1.Broadcasts S256x4096
  dot_S256x1024_S1024x4096_S256x4096_1_0_0_1_n_n_wf : DotDims.WF S256x1024 S1024x4096 S256x4096 [1] [0] [0] [1] [] []
  dot_S256x4096_S4096x1024_S256x1024_1_0_0_1_n_n_wf : DotDims.WF S256x4096 S4096x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S1024x4096.size a
  hwx0_1 : ∀ i : grid0.Coords, EltTy.bits .bf16 = 32 ∨ (Rect.block (s := S1024x4096) S1024x4096.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x1024.size a ≤ S4096x1024.size a
  hwx0_2 : ∀ i : grid0.Coords, EltTy.bits .bf16 = 32 ∨ (Rect.block (s := S4096x1024) S4096x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S4096x4096.size a
  hwx0_3 : ∀ i : grid0.Coords, EltTy.bits .f32 = 32 ∨ (Rect.block (s := S4096x4096) S256x4096.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf
def dot_S256x4096_S4096x1024_S256x1024_1_0_0_1_n_n : DotDims S256x4096 S4096x1024 S256x1024 where
  lhsContracting := [1]
  rhsContracting := [0]
  lhsNonContracting := [0]
  rhsNonContracting := [1]
  lhsBatch := []
  rhsBatch := []
  wf := dot_S256x4096_S4096x1024_S256x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x4096, .f32⟩
  | .hbm, ⟨4, _⟩ => ⟨S1024x4096, .f32⟩
  | .hbm, ⟨5, _⟩ => ⟨S4096x4096, .f32⟩
  | .hbm, ⟨6, _⟩ => ⟨S_, .f32⟩
  | .hbm, ⟨7, _⟩ => ⟨S_, .f32⟩
  | .hbm, ⟨8, _⟩ => ⟨S4096x4096, .f32⟩
  | .hbm, ⟨9, _⟩ => ⟨S4096x4096, .f32⟩
  | .hbm, ⟨10, _⟩ => ⟨S_, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S4096x1, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.Spec.lean ====
/-
  One output row of the attention layer, written twice over the extended reals.

  For a query row `h` (1024 entries), the keys as a 1024 × 4096 array `kt` (column `q` is key `q`), the values
  `v` (4096 × 1024) and the row `mk` of the mask (4096 entries):

  * the scores are the inner products of `h` with the keys, scaled: by the factor `1/32` (`scoreMul`), or divided
    by `√1024` (`scoreDiv`);
  * a row of numbers `x` is turned into weights `exp (x q - M) / Σ_k exp (x k - M)` for a shift `M` (`weights`),
    or with no shift at all (`weightsPlain`);
  * the first weights, of the scores, are multiplied entry by entry with the mask row, weights are taken a second
    time, and the output entry `j` is the weighted sum `Σ_q w q * v q j` of column `j` of the values.

  `rowShiftOnce` shifts the first weights by the row maximum and takes the second weights unshifted; `rowShiftTwice`
  shifts both by the row maximum, takes each maximum once more against `-∞`, and starts each sum from the zero word.
  The two agree when the entries of `h`, `kt` and `mk` are real numbers (SoftmaxLaw, RowLaw).
-/
import Idealize.ShloMosaic.PureOps.Ideal
import Idealize.ShloMosaic.Lib.ValueIdx

noncomputable section

open scoped BigOperators

namespace Cert.Attn

open Idealize.ShloMosaic Idealize.ShloMosaic.ValueIdx

/-- The word of `-∞`, the value every row maximum starts from. -/
abbrev negInfWord : EReal := Ideal.ofBits .f32 0xFF800000#32

/-- The zero word, the value a sum written with an initial value starts from. -/
abbrev zeroWord : EReal := Ideal.ofBits .f32 0x00000000#32

/-- The maximum of a row of 4096 numbers, folded from `-∞`. -/
def rowMax (x : Fin 4096 → EReal) : EReal := (Finset.univ : Finset (Fin 4096)).fold max negInfWord x

/-- The weights of a row shifted by `M`: `exp (x q - M) / Σ_k exp (x k - M)`. -/
def weights (M : EReal) (x : Fin 4096 → EReal) (q : Fin 4096) : EReal :=
  Ideal.div (Ideal.exp (x q - M)) (∑ k : Fin 4096, Ideal.exp (x k - M))

/-- The weights of a row with no shift: `exp (x q) / Σ_k exp (x k)`. -/
def weightsPlain (x : Fin 4096 → EReal) (q : Fin 4096) : EReal :=
  Ideal.div (Ideal.exp (x q)) (∑ k : Fin 4096, Ideal.exp (x k))

/-- The weights of a row shifted by its maximum taken once more against `-∞`, the sum started from the zero word. -/
def weightsInit (x : Fin 4096 → EReal) (q : Fin 4096) : EReal :=
  Ideal.div (Ideal.exp (x q - max negInfWord (rowMax x)))
    (zeroWord + ∑ k : Fin 4096, Ideal.exp (x k - max negInfWord (rowMax x)))

/-- Score `q`: the inner product of the query row with key `q`, times the word of `1/32`. -/
def scoreMul (h : Fin 1024 → EReal) (kt : Fin 1024 → Fin 4096 → EReal) (q : Fin 4096) : EReal :=
  (∑ k : Fin 1024, h k * kt k q) * Ideal.ofBits .f32 0x3D000000#32

/-- Score `q`: the same inner product divided by the square root of the word of `1024`. -/
def scoreDiv (h : Fin 1024 → EReal) (kt : Fin 1024 → Fin 4096 → EReal) (q : Fin 4096) : EReal :=
  Ideal.div (∑ k : Fin 1024, h k * kt k q) (Ideal.sqrt (Ideal.ofBits .f32 0x44800000#32))

/-- The output row with the first weights shifted by the row maximum and the second weights unshifted. -/
def rowShiftOnce (h : Fin 1024 → EReal) (kt : Fin 1024 → Fin 4096 → EReal) (v : Fin 4096 → Fin 1024 → EReal)
    (mk : Fin 4096 → EReal) (j : Fin 1024) : EReal :=
  ∑ q : Fin 4096, weightsPlain (fun q' => weights (rowMax (scoreMul h kt)) (scoreMul h kt) q' * mk q') q * v q j

/-- The output row with both weights shifted by their row maxima. -/
def rowShiftTwice (h : Fin 1024 → EReal) (kt : Fin 1024 → Fin 4096 → EReal) (v : Fin 4096 → Fin 1024 → EReal)
    (mk : Fin 4096 → EReal) (j : Fin 1024) : EReal :=
  ∑ q : Fin 4096, weightsInit (fun q' => weightsInit (scoreDiv h kt) q' * mk q') q * v q j

/-- The whole output array: row `i 0` of the queries `H` and of the mask `MK` against all keys and values. -/
def attnOut (H : (⟨2, ![4096, 1024]⟩ : Shape).Idx → EReal) (kt : Fin 1024 → Fin 4096 → EReal)
    (v : Fin 4096 → Fin 1024 → EReal) (MK : (⟨2, ![4096, 4096]⟩ : Shape).Idx → EReal) :
    (⟨2, ![4096, 1024]⟩ : Shape).Idx → EReal :=
  fun i => rowShiftOnce (fun k => H (ix2 (i 0) k)) kt v (fun q => MK (ix2 (i 0) q)) (i 1)

end Cert.Attn

end
-- ==== Proof.LibMatmulPlain.lean ====
/-
  A plain matrix product into a zero accumulator, read at an entry, over the extended reals.

  For the dimension numbers `DotDims.plain M K N` (an `M × K` left operand, a `K × N` right operand, the left one's
  columns contracted with the right one's rows, no batch axis) entry `(p, q)` of the product accumulated into the
  zero matrix is `Σ_{k < K} l (p, k) * r (k, q)`: the contraction index has one coordinate, which runs over `Fin K`.
-/
import Idealize.ShloMosaic.PureOps.Ideal.Laws
import Idealize.ShloMosaic.Lib.ValueIdx

noncomputable section

open scoped BigOperators

namespace Cert.Lib

open Idealize.ShloMosaic Idealize.ShloMosaic.ValueIdx

/-- The left operand's index at output entry `(p, q)` and contraction coordinate `k` is `(p, k)`. -/
theorem plain_lhsIdx (M K N : Nat) (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index there is `(k, q)`. -/
theorem plain_rhsIdx (M K N : Nat) (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- ENTRY `(p, q)` OF A PLAIN PRODUCT INTO ZERO: the sum over `k : Fin K` of `l (p, k) * r (k, q)`. -/
theorem matmul_plain_zero_apply {φ₁ φ₂ : FTy} (M K N : Nat) (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

end Cert.Lib

end
-- ==== Proof.LibColumn.lean ====
/-
  A column kept from a vector, and a column spread along rows, read at an entry.

  Summing a matrix along its rows while keeping the axis (`keepdims`) leaves an `[a]` vector viewed as an `[a, 1]`
  column; dividing the matrix by it spreads the column back to `[a, b]`. Read at an entry:
  * the `[a]` vector cast to `[a, 1]` has, at `(i, u)`, the vector's entry `i`, whatever the unit coordinate `u`;
  * the `[a, 1]` column broadcast to `[a, b]` has, at `(p, c)`, the column's entry `(p, 0)`.
-/
import Idealize.ShloMosaic.Lib.Pipeline.Value
import Idealize.ShloMosaic.Lib.ValueIdx

namespace Cert.Lib

open Idealize.ShloMosaic Idealize.ShloMosaic.ValueIdx

variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.KernelPay.lean ====
/-
  The attention body on one block of 256 query rows, read at an entry.

  The body takes a block `x0` of 256 query rows, all keys as a 1024 × 4096 array `x1`, all values `x2` and the
  block `x3` of 256 mask rows. Its stored result is a product of the second weights with the values. Entry
  `(r, j)` of that result depends only on row `r` of `x0` and of `x3`, and is the row function
  `rowShiftOnce` of them: the scores of row `r` are a matrix-product entry times a constant; each row maximum
  and row sum is a reduction along the 4096 columns, kept as a column and spread back along the row; everything
  else acts entry by entry.
-/
import proofs.«146398_j7172595384925_2_alg».proof.Proof.Gen.KernelIdeal.Skeleton
import proofs.«146398_j7172595384925_2_alg».proof.Proof.Spec
import proofs.«146398_j7172595384925_2_alg».proof.Proof.LibMatmulPlain
import proofs.«146398_j7172595384925_2_alg».proof.Proof.LibColumn
import Idealize.ShloMosaic.PureOps.Ideal.Laws
import Idealize.ShloMosaic.Lib.Pipeline.Value
import Idealize.ShloMosaic.Lib.ValueIdx

noncomputable section
open scoped BigOperators
namespace Cert.Attn
open Idealize.ShloMosaic Idealize.ShloMosaic.ValueIdx Cert.KernelIdeal Cert.KernelIdeal.Gen

/-- The scaled scores of a block of 256 query rows against all 4096 keys. -/
def scores (x0 : FVec Ideal S256x1024 .f32) (x1 : FVec Ideal S1024x4096 .bf16) : FVec Ideal S256x4096 .f32 :=
  mulf (matmul dot_S256x1024_S1024x4096_S256x4096_1_0_0_1_n_n none (truncf .bf16 x0 bitsLt_bf16_f32 : FVec Ideal S256x1024 .bf16)
      (shapeCast S1024x4096 x1 shapeCasts_S1024x4096_S1024x4096 : FVec Ideal S1024x4096 .bf16) (constant S256x4096 .f32 0x00000000#32))
    (broadcast S256x4096 (Scalar.ofBits .f32 0x3D000000#32))

/-- A vector of 256 row values kept as a column and spread along the 4096 columns. -/
def colOf (red : FVec Ideal S256 .f32) : FVec Ideal S256x4096 .f32 :=
  broadcastTo S256x4096 (shapeCast S256x1 red shapeCasts_S256_S256x1 : FVec Ideal S256x1 .f32) broadcasts_S256x1_S256x4096

/-- The maximum of each of the 256 rows, from `-∞`. -/
def rowMaxV (X : FVec Ideal S256x4096 .f32) : FVec Ideal S256 .f32 :=
  multiReduction .maximumf [1] S256 X 0xFF800000#32 reduces_S256x4096_S256 (.inl rfl) rfl

/-- The sum of each of the 256 rows. -/
def rowSumV (X : FVec Ideal S256x4096 .f32) : FVec Ideal S256 .f32 :=
  multiReduction .add [1] S256 X 0x00000000#32 reduces_S256x4096_S256 (.inl rfl) rfl

/-- The exponentials of the scores shifted by their row maximum. -/
def expShifted (x0 : FVec Ideal S256x1024 .f32) (x1 : FVec Ideal S1024x4096 .bf16) : FVec Ideal S256x4096 .f32 :=
  exp (subf (scores x0 x1) (colOf (rowMaxV (scores x0 x1))))

/-- The first weights times the mask. -/
def maskedV (x0 : FVec Ideal S256x1024 .f32) (x1 : FVec Ideal S1024x4096 .bf16) (x3 : FVec Ideal S256x4096 .f32) : FVec Ideal S256x4096 .f32 :=
  mulf (divf (expShifted x0 x1) (colOf (rowSumV (expShifted x0 x1)))) x3

/-- The second weights: the exponentials of the masked first weights over their row sums. -/
def secondWeights (x0 : FVec Ideal S256x1024 .f32) (x1 : FVec Ideal S1024x4096 .bf16) (x3 : FVec Ideal S256x4096 .f32) : FVec Ideal S256x4096 .f32 :=
  divf (exp (maskedV x0 x1 x3)) (colOf (rowSumV (exp (maskedV x0 x1 x3))))

/-- The stored value is the product of the second weights with the values. -/
theorem pay_eq (x0 : FVec Ideal S256x1024 .f32) (x1 : FVec Ideal S1024x4096 .bf16) (x2 : FVec Ideal S4096x1024 .bf16) (x3 : FVec Ideal S256x4096 .f32) :
    k0_pay1 (F := Ideal) x0 x1 x2 x3 = matmul dot_S256x4096_S4096x1024_S256x1024_1_0_0_1_n_n none (truncf .bf16 (secondWeights x0 x1 x3) bitsLt_bf16_f32 : FVec Ideal S256x4096 .bf16)
      (shapeCast S4096x1024 x2 shapeCasts_S4096x1024_S4096x1024 : FVec Ideal S4096x1024 .bf16) (constant S256x1024 .f32 0x00000000#32) := by
  unfold k0_pay1 secondWeights maskedV expShifted scores colOf rowMaxV rowSumV
  rfl

/-- A kept column spread along the row reads, at `(r, q)`, the row value `r`. -/
theorem colOf_apply (red : FVec Ideal S256 .f32) (r : Fin 256) (q : Fin 4096) : colOf red (ix2 r q) = red (ix1 r) := by
  unfold colOf
  rw [Cert.Lib.broadcastTo_a1_ab_apply, Cert.Lib.shapeCast_a_a1_apply]

/-- Row index `r` with column `k` put back is `(r, k)`. -/
theorem lift_row (r : Fin 256) (k : Fin (S256x4096.size 1)) :
    Gen.reduces_S256x4096_S256.lift (ix1 r) k = ix2 r (⟨k.val, k.isLt⟩ : Fin 4096) := by
  funext c; apply Fin.ext
  fin_cases c <;> rfl

/-- The row maximum at row `r` is the maximum over the 4096 columns of row `r`, from `-∞`. -/
theorem rowMaxV_apply (X : FVec Ideal S256x4096 .f32) (r : Fin 256) : rowMaxV X (ix1 r) = rowMax (fun q => X (ix2 r q)) := by
  unfold rowMaxV rowMax
  refine (Ideal.multiReduction_maximumf_single X 0xFF800000#32 Gen.reduces_S256x4096_S256 (.inl rfl) rfl (ix1 r)).trans ?_
  exact congrArg (fun f => Finset.fold max negInfWord f Finset.univ) (funext fun k => congrArg X (lift_row r k))

/-- The row sum at row `r` is the sum over the 4096 columns of row `r`. -/
theorem rowSumV_apply (X : FVec Ideal S256x4096 .f32) (r : Fin 256) : rowSumV X (ix1 r) = ∑ q : Fin 4096, X (ix2 r q) := by
  unfold rowSumV
  refine (Ideal.multiReduction_add_single X 0x00000000#32 Gen.reduces_S256x4096_S256 (.inl rfl) rfl (ix1 r)).trans ?_
  exact Finset.sum_congr rfl fun k _ => congrArg X (lift_row r k)

/-- Score `(r, q)`: the inner product of query row `r` with key `q`, times the constant. -/
theorem scores_apply (x0 : FVec Ideal S256x1024 .f32) (x1 : FVec Ideal S1024x4096 .bf16) (r : Fin 256) (q : Fin 4096) :
    scores x0 x1 (ix2 r q) = scoreMul (fun k => x0 (ix2 r k)) (fun k q' => x1 (ix2 k q')) q := by
  unfold scores scoreMul
  refine congrArg (· * Ideal.ofBits .f32 0x3D000000#32) ?_
  refine (Cert.Lib.matmul_plain_zero_apply 256 1024 4096 none _ _ r q).trans ?_
  refine Finset.sum_congr rfl fun k _ => ?_
  rw [shapeCast_self]
  rfl

/-- The shifted exponential at `(r, q)`. -/
theorem expShifted_apply (x0 : FVec Ideal S256x1024 .f32) (x1 : FVec Ideal S1024x4096 .bf16) (r : Fin 256) (q : Fin 4096) :
    expShifted x0 x1 (ix2 r q)
      = Ideal.exp (scoreMul (fun k => x0 (ix2 r k)) (fun k q' => x1 (ix2 k q')) q
          - rowMax (scoreMul (fun k => x0 (ix2 r k)) (fun k q' => x1 (ix2 k q')))) := by
  unfold expShifted
  show Ideal.exp (scores x0 x1 (ix2 r q) - colOf (rowMaxV (scores x0 x1)) (ix2 r q)) = _
  rw [colOf_apply, rowMaxV_apply, scores_apply]
  exact congrArg (fun f => Ideal.exp (_ - rowMax f)) (funext fun q' => scores_apply x0 x1 r q')

/-- The masked first weights at `(r, q)`. -/
theorem maskedV_apply (x0 : FVec Ideal S256x1024 .f32) (x1 : FVec Ideal S1024x4096 .bf16) (x3 : FVec Ideal S256x4096 .f32) (r : Fin 256) (q : Fin 4096) :
    maskedV x0 x1 x3 (ix2 r q)
      = weights (rowMax (scoreMul (fun k => x0 (ix2 r k)) (fun k q' => x1 (ix2 k q'))))
          (scoreMul (fun k => x0 (ix2 r k)) (fun k q' => x1 (ix2 k q'))) q * x3 (ix2 r q) := by
  unfold maskedV weights
  show Ideal.div (expShifted x0 x1 (ix2 r q)) (colOf (rowSumV (expShifted x0 x1)) (ix2 r q)) * x3 (ix2 r q) = _
  rw [colOf_apply, rowSumV_apply, expShifted_apply]
  exact congrArg (fun s => Ideal.div _ s * _) (Finset.sum_congr rfl fun k _ => expShifted_apply x0 x1 r k)

/-- The second weights at `(r, q)`. -/
theorem secondWeights_apply (x0 : FVec Ideal S256x1024 .f32) (x1 : FVec Ideal S1024x4096 .bf16) (x3 : FVec Ideal S256x4096 .f32) (r : Fin 256) (q : Fin 4096) :
    secondWeights x0 x1 x3 (ix2 r q)
      = weightsPlain (fun q' => weights (rowMax (scoreMul (fun k => x0 (ix2 r k)) (fun k q'' => x1 (ix2 k q''))))
          (scoreMul (fun k => x0 (ix2 r k)) (fun k q'' => x1 (ix2 k q''))) q' * x3 (ix2 r q')) q := by
  unfold secondWeights weightsPlain
  show Ideal.div (Ideal.exp (maskedV x0 x1 x3 (ix2 r q))) (colOf (rowSumV (exp (maskedV x0 x1 x3))) (ix2 r q)) = _
  rw [colOf_apply, rowSumV_apply, maskedV_apply]
  exact congrArg (fun s => Ideal.div _ s) (Finset.sum_congr rfl fun k _ => congrArg Ideal.exp (maskedV_apply x0 x1 x3 r k))

/-- ENTRY `(r, j)` OF THE STORED VALUE is the row function of row `r` of the query block and of the mask block. -/
theorem pay_apply (x0 : FVec Ideal S256x1024 .f32) (x1 : FVec Ideal S1024x4096 .bf16) (x2 : FVec Ideal S4096x1024 .bf16) (x3 : FVec Ideal S256x4096 .f32)
    (r : Fin 256) (j : Fin 1024) :
    k0_pay1 (F := Ideal) x0 x1 x2 x3 (ix2 r j)
      = rowShiftOnce (fun k => x0 (ix2 r k)) (fun k q => x1 (ix2 k q)) (fun q j' => x2 (ix2 q j')) (fun q => x3 (ix2 r q)) j := by
  rw [pay_eq]
  unfold rowShiftOnce
  refine (Cert.Lib.matmul_plain_zero_apply 256 4096 1024 none _ _ r j).trans ?_
  refine Finset.sum_congr rfl fun q _ => ?_
  rw [shapeCast_self]
  exact congrArg (· * x2 (ix2 q j)) (secondWeights_apply x0 x1 x3 r q)

end Cert.Attn
end
-- ==== Proof.KernelArr.lean ====
/-
  From the blocks the grid writes to the whole output array.

  The grid has 16 points. Point `t` reads rows `256 t … 256 t + 255` of the queries and of the mask, all of the
  keys (stored transposed, 1024 × 4096) and all of the values, and writes rows `256 t … 256 t + 255` of the
  output. Entry `(r, j)` of what it writes is the row function of row `256 t + r` of the queries and the mask
  (KernelPay), so each written block is that block of ONE whole-array function, `attnOut`; the 16 blocks cover
  the 4096 rows, so the output array ends holding `attnOut`. The key array the grid reads is the transpose of
  the key argument and the value array is the value argument (a change of float format is the identity on the
  extended reals), which gives the output as a function of the four arguments.
-/
import proofs.«146398_j7172595384925_2_alg».proof.Proof.Gen.KernelIdeal.Value
import proofs.«146398_j7172595384925_2_alg».proof.Proof.KernelPay
import Idealize.ShloMosaic.Lib.Pipeline.Value
import Idealize.ShloMosaic.Lib.StableHlo.Run
import Idealize.ShloMosaic.Lib.ValueIdx

set_option maxRecDepth 16384

noncomputable section
open scoped BigOperators
namespace Cert.Attn
open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The two zero offsets of a whole-block access. -/
theorem zero_offsets : (![0, 0] : Fin 2 → Nat) = fun _ => 0 := funext fun a => by fin_cases a <;> rfl

/-- The printed index maps over the 16 grid points: the query, mask and output windows are at block row `t`, the
    key and value windows stay at block (0, 0). -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `r` of block `t` is row `256 t + r` of the array. -/
def rowOf (t : Fin cfg0.N) (r : Fin 256) : Fin 4096 :=
  ⟨t.val * 256 + r.val, by have ht := t.isLt; have hN : cfg0.N = 16 := N_0; have hr := r.isLt; omega⟩

/-- Entry `(r, k)` of the query block at point `t` is entry `(256 t + r, k)` of the query array. -/
theorem iblk0_apply (c : Dev nD) (t : Fin cfg0.N) (r : Fin 256) (k : Fin 1024) :
    (iblk m c 0 t : FVec Ideal S256x1024 .f32) (ix2 r k) = (V m c main_arg0 : S4096x1024.Idx → EReal) (ix2 (rowOf t r) k) := by
  obtain ⟨e0, e1, -⟩ := index_facts t
  unfold iblk
  rw [View.read_apply]
  show V m c main_arg0 _ = V m c main_arg0 _
  congr 1
  funext a
  apply Fin.ext
  match a with
  | ⟨0, _⟩ => show win0_0.index t 0 * 256 + 1 * r.val = t.val * 256 + r.val; rw [e0]; omega
  | ⟨1, _⟩ => show win0_0.index t 1 * 1024 + 1 * k.val = k.val; rw [e1]; omega

/-- The key block at every point is the whole key array. -/
theorem iblk1_apply (c : Dev nD) (t : Fin cfg0.N) (k : Fin 1024) (q : Fin 4096) :
    (iblk m c 1 t : FVec Ideal S1024x4096 .bf16) (ix2 k q) = (V m c main_v1 : S1024x4096.Idx → EReal) (ix2 k q) := by
  obtain ⟨-, -, e0, e1, -⟩ := index_facts t
  unfold iblk
  rw [View.read_apply]
  show V m c main_v1 _ = V m c main_v1 _
  congr 1
  funext a
  apply Fin.ext
  match a with
  | ⟨0, _⟩ => show win0_1.index t 0 * 1024 + 1 * k.val = k.val; rw [e0]; omega
  | ⟨1, _⟩ => show win0_1.index t 1 * 4096 + 1 * q.val = q.val; rw [e1]; omega

/-- The value block at every point is the whole value array. -/
theorem iblk2_apply (c : Dev nD) (t : Fin cfg0.N) (q : Fin 4096) (j : Fin 1024) :
    (iblk m c 2 t : FVec Ideal S4096x1024 .bf16) (ix2 q j) = (V m c main_v2 : S4096x1024.Idx → EReal) (ix2 q j) := by
  obtain ⟨-, -, -, -, e0, e1, -⟩ := index_facts t
  unfold iblk
  rw [View.read_apply]
  show V m c main_v2 _ = V m c main_v2 _
  congr 1
  funext a
  apply Fin.ext
  match a with
  | ⟨0, _⟩ => show win0_2.index t 0 * 4096 + 1 * q.val = q.val; rw [e0]; omega
  | ⟨1, _⟩ => show win0_2.index t 1 * 1024 + 1 * j.val = j.val; rw [e1]; omega

/-- Entry `(r, q)` of the mask block at point `t` is entry `(256 t + r, q)` of the mask array. -/
theorem iblk3_apply (c : Dev nD) (t : Fin cfg0.N) (r : Fin 256) (q : Fin 4096) :
    (iblk m c 3 t : FVec Ideal S256x4096 .f32) (ix2 r q) = (V m c main_arg3 : S4096x4096.Idx → EReal) (ix2 (rowOf t r) q) := by
  obtain ⟨-, -, -, -, -, -, e0, e1, -⟩ := index_facts t
  unfold iblk
  rw [View.read_apply]
  show V m c main_arg3 _ = V m c main_arg3 _
  congr 1
  funext a
  apply Fin.ext
  match a with
  | ⟨0, _⟩ => show win0_3.index t 0 * 256 + 1 * r.val = t.val * 256 + r.val; rw [e0]; omega
  | ⟨1, _⟩ => show win0_3.index t 1 * 4096 + 1 * q.val = q.val; rw [e1]; omega

/-- Entry `(r, j)` of the output window's block `t` is entry `(256 t + r, j)` of the array. -/
theorem emb4 (t : Fin cfg0.N) (r : Fin 256) (j : Fin 1024) :
    ((cfg0.win 4).blk t).view.emb (ix2 r j) = (ix2 (rowOf t r) j : S4096x1024.Idx) := by
  obtain ⟨-, -, -, -, -, -, -, -, e0, e1⟩ := index_facts t
  funext a
  apply Fin.ext
  match a with
  | ⟨0, _⟩ => show win0_4.index t 0 * 256 + 1 * r.val = t.val * 256 + r.val; rw [e0]; omega
  | ⟨1, _⟩ => show win0_4.index t 1 * 1024 + 1 * j.val = j.val; rw [e1]; omega

/-- The output array as the region's arrays give it. -/
abbrev outAt (c : Dev nD) : S4096x1024.Idx → EReal :=
  attnOut (V m c main_arg0 : S4096x1024.Idx → EReal) (fun k q => (V m c main_v1 : S1024x4096.Idx → EReal) (ix2 k q))
    (fun q j => (V m c main_v2 : S4096x1024.Idx → EReal) (ix2 q j)) (V m c main_arg3 : S4096x4096.Idx → EReal)

/-- WHAT POINT `t` WRITES BACK is block `t` of the attention output of the arrays the region finds. -/
theorem flushed_eq (c : Dev nD) (t : Fin cfg0.N) :
    (dats m 0 c).flushed 4 t = ((cfg0.win 4).blk t).view.read (Elt Ideal) (outAt m c) := by
  rw [Cert.KernelIdeal.Value.flushed4]
  unfold out0_4
  rw [View.canon_unit_zero zero_offsets]
  simp only [View.ld_unit_zero (S := S256x1024) zero_offsets, View.ld_unit_zero (S := S1024x4096) zero_offsets,
    View.ld_unit_zero (S := S4096x1024) zero_offsets, View.ld_unit_zero (S := S256x4096) zero_offsets]
  funext y
  obtain ⟨r, j, rfl⟩ : ∃ (r : Fin 256) (j : Fin 1024), y = (ix2 r j : S256x1024.Idx) := ⟨y 0, y 1, eq_ix2 (n0 := 256) (n1 := 1024) y⟩
  show k0_pay1 (F := Ideal) (iblk m c 0 t) (iblk m c 1 t) (iblk m c 2 t) (iblk m c 3 t) (ix2 r j)
    = outAt m c (((cfg0.win 4).blk t).view.emb (ix2 r j))
  rw [emb4]
  refine (pay_apply (iblk m c 0 t) (iblk m c 1 t) (iblk m c 2 t) (iblk m c 3 t) r j).trans ?_
  have h0 : (fun k => (iblk m c 0 t : FVec Ideal S256x1024 .f32) (ix2 r k))
      = fun k => (V m c main_arg0 : S4096x1024.Idx → EReal) (ix2 (rowOf t r) k) := funext fun k => iblk0_apply m c t r k
  have h1 : (fun k q => (iblk m c 1 t : FVec Ideal S1024x4096 .bf16) (ix2 k q))
      = fun k q => (V m c main_v1 : S1024x4096.Idx → EReal) (ix2 k q) := funext fun k => funext fun q => iblk1_apply m c t k q
  have h2 : (fun q j' => (iblk m c 2 t : FVec Ideal S4096x1024 .bf16) (ix2 q j'))
      = fun q j' => (V m c main_v2 : S4096x1024.Idx → EReal) (ix2 q j') := funext fun q => funext fun j' => iblk2_apply m c t q j'
  have h3 : (fun q => (iblk m c 3 t : FVec Ideal S256x4096 .f32) (ix2 r q))
      = fun q => (V m c main_arg3 : S4096x4096.Idx → EReal) (ix2 (rowOf t r) q) := funext fun q => iblk3_apply m c t r q
  exact congrFun (congr (congr (congr (congrArg rowShiftOnce h0) h1) h2) h3) j

/-- An index of the array is in point `t`'s output block iff each coordinate is in the block's range on its axis. -/
theorem mem_blk4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v3).slice (win0_4.rect t)).set ↔ _
  rw [View.set_slice_whole, Rect.mem_set_unit]
  exact Iff.rfl

/-- The 16 output blocks of 256 rows cover the 4096 rows: row `p` is in block `p / 256`. -/
theorem covered (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 16 := N_0
  have ht : (i 0).val / 256 < cfg0.N := by omega
  obtain ⟨-, -, -, -, -, -, -, -, e0, e1⟩ := index_facts ⟨(i 0).val / 256, ht⟩
  refine ⟨⟨(i 0).val / 256, ht⟩, flush0_4 _, ?_⟩
  rw [mem_blk4]
  intro a
  match a with
  | ⟨0, _⟩ =>
    show win0_4.index ⟨(i 0).val / 256, ht⟩ 0 * 256 ≤ (i 0).val ∧ (i 0).val < win0_4.index ⟨(i 0).val / 256, ht⟩ 0 * 256 + 256
    rw [e0]; show (i 0).val / 256 * 256 ≤ (i 0).val ∧ (i 0).val < (i 0).val / 256 * 256 + 256; omega
  | ⟨1, _⟩ =>
    show win0_4.index ⟨(i 0).val / 256, ht⟩ 1 * 1024 ≤ (i 1).val ∧ (i 1).val < win0_4.index ⟨(i 0).val / 256, ht⟩ 1 * 1024 + 1024
    rw [e1]; omega

/-- THE OUTPUT ARRAY after the run is the attention output of the arrays as the region finds them. -/
theorem final (c : Dev nD) : (dats m 0 c).arrAt 4 cfg0.N = outAt m c :=
  (dats m 0 c).arrAt_eq_of_cover 4 (outAt m c) (fun t _ => flushed_eq m c t) covered

/-- The key window's array is the transpose of the keys: entry `(k, q)` is entry `(q, k)` of the argument. -/
theorem keysT_apply (c : Dev nD) (k : Fin 1024) (q : Fin 4096) :
    (V m c main_v1 : S1024x4096.Idx → EReal) (ix2 k q) = (m ((c : Thread nD τ).loc main_arg1) : S4096x1024.Idx → EReal) (ix2 q k) := by
  have e : (V m c main_v1 : S1024x4096.Idx → EReal)
      = transpose S1024x4096 [1, 0] (truncf .bf16 (m ((c : Thread nD τ).loc main_arg1) : FVec Ideal S4096x1024 .f32) bitsLt_bf16_f32 : FVec Ideal S4096x1024 .bf16) transposes_S4096x1024_S1024x4096_1_0 := by
    dsimp only [Gen.V, Gen.hostOps0]; after_results
  rw [e]
  refine (transpose_apply [1, 0] _ transposes_S4096x1024_S1024x4096_1_0 (ix2 k q) (ix2 q k) (fun b => match b with
    | ⟨0, _⟩ => rfl
    | ⟨1, _⟩ => rfl)).trans ?_
  rfl

/-- The value window's array is the values. -/
theorem values_apply (c : Dev nD) (q : Fin 4096) (j : Fin 1024) :
    (V m c main_v2 : S4096x1024.Idx → EReal) (ix2 q j) = (m ((c : Thread nD τ).loc main_arg2) : S4096x1024.Idx → EReal) (ix2 q j) := by
  have e : (V m c main_v2 : S4096x1024.Idx → EReal)
      = (truncf .bf16 (m ((c : Thread nD τ).loc main_arg2) : FVec Ideal S4096x1024 .f32) bitsLt_bf16_f32 : FVec Ideal S4096x1024 .bf16) := by
    dsimp only [Gen.V, Gen.hostOps0]; after_results
  rw [e]
  rfl

/-- The attention output of the four argument arrays: the keys enter transposed. -/
abbrev outOf (a0 a1 a2 : S4096x1024.Idx → EReal) (a3 : S4096x4096.Idx → EReal) : S4096x1024.Idx → EReal :=
  attnOut a0 (fun k q => a1 (ix2 q k)) (fun q j => a2 (ix2 q j)) a3

/-- The arrays the region finds, read back to the four arguments. -/
theorem outAt_eq (c : Dev nD) :
    outAt m c = outOf (m ((c : Thread nD τ).loc main_arg0)) (m ((c : Thread nD τ).loc main_arg1))
      (m ((c : Thread nD τ).loc main_arg2)) (m ((c : Thread nD τ).loc main_arg3)) :=
  congr (congr (congr (congrArg attnOut (V_main_arg0 m c)) (funext fun k => funext fun q => keysT_apply m c k q))
    (funext fun q => funext fun j => values_apply m c q j)) (V_main_arg3 m c)

/-- THE RUN: every execution ends with the output array at the attention output of the argument arrays, which
    are unchanged. -/
theorem kernel_run : θ_run defs (onTc (τ := τ) (main (F := Ideal))) ⟨m, fun _ => 0, ρ⟩ fun r => ∀ c : Dev nD,
      r.2.mem ((c : Thread nD τ).loc main_v3) = outOf (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (outAt_eq m c)), (h c).2⟩)
    (Cert.KernelIdeal.Value.run_blocks m ρ)

end Cert.Attn
end
-- ==== Proof.RefRead.lean ====
/-
  The reference program read row by row.

  The reference computes the scores of a query row against all keys (an inner product divided by the square root of
  1024), turns them into weights (shifted by the row maximum, itself taken once more against -∞, the sum started from
  the zero word), multiplies the weights by the mask row, takes weights a second time in the same way, and sums the
  value columns with those weights. Each stage is read here at explicit coordinates, down to `rowShiftTwice`.
-/
import proofs.«146398_j7172595384925_2_alg».proof.Proof.Gen.ReferenceIdeal.Read
import proofs.«146398_j7172595384925_2_alg».proof.Proof.Spec
import Idealize.ShloMosaic.PureOps.Ideal.Laws
import Idealize.ShloMosaic.Lib.ValueIdx
import Idealize.ShloMosaic.Lib.Pipeline.Value

noncomputable section

open scoped BigOperators

namespace Cert.Attn

open Idealize.ShloMosaic Idealize.ShloMosaic.ValueIdx Cert.ReferenceIdeal Cert.ReferenceIdeal.Read

namespace Ref

/-- A 4096 × 1024 array of extended reals. -/
abbrev A41 : Type := (⟨S4096x1024, .f32⟩ : BufTy).Contents (Elt Ideal)
/-- A 4096 × 4096 array of extended reals. -/
abbrev A44 : Type := (⟨S4096x4096, .f32⟩ : BufTy).Contents (Elt Ideal)

/-! ## The scores -/

/-- The transposed keys at (k, q) are the keys at (q, k). -/
theorem v0_apply (x1 : A41) (k : Fin 1024) (q : Fin 4096) :
    val_main_v0 (F := Ideal) x1 (ix2 k q) = x1 (ix2 q k) := by
  refine (val_main_v0_apply x1 (ix2 k q)).trans ?_
  exact congrArg x1 (funext fun a => Fin.ext (by match a with | ⟨0, _⟩ => rfl | ⟨1, _⟩ => rfl))

/-- The product of the queries with the transposed keys at (p, q) is the inner product of row p with key q. -/
theorem v1_apply (x0 x1 : A41) (p q : Fin 4096) :
    val_main_v1 (F := Ideal) x0 x1 (ix2 p q) = ∑ k : Fin 1024, x0 (ix2 p k) * x1 (ix2 q k) := by
  refine (val_main_v1_apply x0 x1 (ix2 p q)).trans ?_
  refine Finset.sum_congr rfl fun k _ => ?_
  have el : lidx_main_v1 (ix2 p q) k = ix2 p k :=
    funext fun a => Fin.ext (by match a with | ⟨0, _⟩ => rfl | ⟨1, _⟩ => rfl)
  have er : ridx_main_v1 (ix2 p q) k = ix2 k q :=
    funext fun a => Fin.ext (by match a with | ⟨0, _⟩ => rfl | ⟨1, _⟩ => rfl)
  rw [el, er, v0_apply]

/-- The divisor is the square root of the word of 1024 everywhere. -/
theorem v3_apply (p q : Fin 4096) :
    val_main_v3 (F := Ideal) (ix2 p q) = Ideal.sqrt (Ideal.ofBits .f32 0x44800000#32) := by
  refine (val_main_v3_apply (F := Ideal) (ix2 p q)).trans ?_
  rfl

/-- The score at (p, q). -/
theorem v4_apply (x0 x1 : A41) (p q : Fin 4096) :
    val_main_v4 (F := Ideal) x0 x1 (ix2 p q)
      = scoreDiv (fun k => x0 (ix2 p k)) (fun k q => x1 (ix2 q k)) q := by
  refine (val_main_v4_apply x0 x1 (ix2 p q)).trans ?_
  rw [v1_apply, v3_apply]
  rfl

/-! ## A row maximum -/

/-- The reduced index p with column k put back is (p, k). -/
theorem lift_row (h : S4096x4096.Reduces [1] S4096) (p : Fin 4096) (k : Fin (S4096x4096.size 1)) :
    h.lift (ix1 p) k = ix2 p (⟨k.val, k.isLt⟩ : Fin 4096) := by
  funext c; apply Fin.ext
  fin_cases c <;> rfl

/-- The maximum taken along the columns from the word of -∞ is, at row p, the folded maximum of the row. -/
theorem reduceMax_row (X : A44) (h' : S4096x4096.ReducesTo [1] S4096) (hu : 0 < S_.numel) (p : Fin 4096) :
    Host.reduce (FloatOps.maximumf (F := Ideal) (φ := .f32)) X
        (constant (F := Ideal) S_ .f32 0xFF800000#32) h' hu (ix1 p)
      = rowMax (fun q => X (ix2 p q)) := by
  have h : S4096x4096.Reduces [1] S4096 := by decide
  rw [Host.reduce_eq_fold_single (FloatOps.maximumf (F := Ideal) (φ := .f32)) X _ h' h hu]
  have hf : (X ∘ h.lift (ix1 p)) = fun k : Fin 4096 => X (ix2 p k) :=
    funext fun k => congrArg X (lift_row h p k)
  unfold rowMax
  exact congrArg (fun f => Finset.fold max (Ideal.ofBits .f32 0xFF800000#32) f (Finset.univ : Finset (Fin 4096))) hf

/-! ## The first weights and the mask -/

/-- The row maximum of the scores, folded from -∞. -/
theorem v5_apply (x0 x1 : A41) (p : Fin 4096) :
    val_main_v5 (F := Ideal) x0 x1 (ix1 p) = rowMax (fun q => val_main_v4 (F := Ideal) x0 x1 (ix2 p q)) := by
  unfold val_main_v5 val_main_cst_0
  generalize val_main_v4 (F := Ideal) x0 x1 = X
  exact reduceMax_row X _ _ p

/-- The broadcast word of -∞. -/
theorem v6_apply (p : Fin 4096) : val_main_v6 (F := Ideal) (ix1 p) = negInfWord :=
  (val_main_v6_apply (F := Ideal) (ix1 p)).trans rfl

/-- The row maximum taken once more against -∞. -/
theorem v7_apply (x0 x1 : A41) (p : Fin 4096) :
    val_main_v7 (F := Ideal) x0 x1 (ix1 p)
      = max negInfWord (rowMax (fun q => val_main_v4 (F := Ideal) x0 x1 (ix2 p q))) := by
  refine (val_main_v7_apply x0 x1 (ix1 p)).trans ?_
  exact congrArg₂ max (v6_apply p) (v5_apply x0 x1 p)

/-- The maximum of row p spread along the row. -/
theorem v9_apply (x0 x1 : A41) (p q : Fin 4096) :
    val_main_v9 (F := Ideal) x0 x1 (ix2 p q) = val_main_v7 (F := Ideal) x0 x1 (ix1 p) := by
  refine (val_main_v9_apply x0 x1 (ix2 p q)).trans ((val_main_v8_apply x0 x1 _).trans ?_)
  exact congrArg (val_main_v7 (F := Ideal) x0 x1) (funext fun a => Fin.ext (by match a with | ⟨0, _⟩ => rfl))

/-- The exponential of the shifted score at (p, q). -/
theorem v11_apply (x0 x1 : A41) (p q : Fin 4096) :
    val_main_v11 (F := Ideal) x0 x1 (ix2 p q)
      = Ideal.exp (val_main_v4 (F := Ideal) x0 x1 (ix2 p q)
          - max negInfWord (rowMax (fun q' => val_main_v4 (F := Ideal) x0 x1 (ix2 p q')))) := by
  refine (val_main_v11_apply x0 x1 (ix2 p q)).trans ?_
  refine congrArg Ideal.exp ?_
  refine (val_main_v10_apply x0 x1 (ix2 p q)).trans ?_
  refine congrArg (fun m => val_main_v4 (F := Ideal) x0 x1 (ix2 p q) - m) ?_
  exact (v9_apply x0 x1 p q).trans (v7_apply x0 x1 p)

/-- The sum of the exponentials of row p, started from the zero word. -/
theorem v12_apply (x0 x1 : A41) (p : Fin 4096) :
    val_main_v12 (F := Ideal) x0 x1 (ix1 p)
      = zeroWord + ∑ k : Fin 4096, val_main_v11 (F := Ideal) x0 x1 (ix2 p k) := by
  refine (val_main_v12_apply x0 x1 (ix1 p)).trans ?_
  refine congrArg (zeroWord + ·) (Finset.sum_congr rfl fun k _ => ?_)
  exact congrArg (val_main_v11 (F := Ideal) x0 x1)
    (funext fun a => Fin.ext (by match a with | ⟨0, _⟩ => rfl | ⟨1, _⟩ => rfl))

/-- The sum of row p spread along the row. -/
theorem v14_apply (x0 x1 : A41) (p q : Fin 4096) :
    val_main_v14 (F := Ideal) x0 x1 (ix2 p q) = val_main_v12 (F := Ideal) x0 x1 (ix1 p) := by
  refine (val_main_v14_apply x0 x1 (ix2 p q)).trans ((val_main_v13_apply x0 x1 _).trans ?_)
  exact congrArg (val_main_v12 (F := Ideal) x0 x1) (funext fun a => Fin.ext (by match a with | ⟨0, _⟩ => rfl))

/-- The first weights at (p, q) are the weights of the row of scores. -/
theorem v15_apply (x0 x1 : A41) (p q : Fin 4096) :
    val_main_v15 (F := Ideal) x0 x1 (ix2 p q)
      = weightsInit (fun q' => val_main_v4 (F := Ideal) x0 x1 (ix2 p q')) q := by
  refine (val_main_v15_apply x0 x1 (ix2 p q)).trans ?_
  unfold weightsInit
  refine congrArg₂ Ideal.div (v11_apply x0 x1 p q) ?_
  refine (v14_apply x0 x1 p q).trans ((v12_apply x0 x1 p).trans ?_)
  exact congrArg (zeroWord + ·) (Finset.sum_congr rfl fun k _ => v11_apply x0 x1 p k)

/-- The masked weights at (p, q). -/
theorem v16_apply (x0 x1 : A41) (x3 : A44) (p q : Fin 4096) :
    val_main_v16 (F := Ideal) x0 x1 x3 (ix2 p q)
      = weightsInit (scoreDiv (fun k => x0 (ix2 p k)) (fun k q' => x1 (ix2 q' k))) q * x3 (ix2 p q) := by
  refine (val_main_v16_apply x0 x1 x3 (ix2 p q)).trans ?_
  refine congrArg (· * x3 (ix2 p q)) ?_
  refine (v15_apply x0 x1 p q).trans ?_
  exact congrArg (fun x => weightsInit x q) (funext fun q' => v4_apply x0 x1 p q')

/-! ## The second weights -/

/-- The row maximum of the masked weights, folded from -∞. -/
theorem v17_apply (x0 x1 : A41) (x3 : A44) (p : Fin 4096) :
    val_main_v17 (F := Ideal) x0 x1 x3 (ix1 p)
      = rowMax (fun q => val_main_v16 (F := Ideal) x0 x1 x3 (ix2 p q)) := by
  unfold val_main_v17 val_main_cst_3
  generalize val_main_v16 (F := Ideal) x0 x1 x3 = X
  exact reduceMax_row X _ _ p

/-- The broadcast word of -∞. -/
theorem v18_apply (p : Fin 4096) : val_main_v18 (F := Ideal) (ix1 p) = negInfWord :=
  (val_main_v18_apply (F := Ideal) (ix1 p)).trans rfl

/-- The row maximum taken once more against -∞. -/
theorem v19_apply (x0 x1 : A41) (x3 : A44) (p : Fin 4096) :
    val_main_v19 (F := Ideal) x0 x1 x3 (ix1 p)
      = max negInfWord (rowMax (fun q => val_main_v16 (F := Ideal) x0 x1 x3 (ix2 p q))) := by
  refine (val_main_v19_apply x0 x1 x3 (ix1 p)).trans ?_
  exact congrArg₂ max (v18_apply p) (v17_apply x0 x1 x3 p)

/-- The maximum of row p spread along the row. -/
theorem v21_apply (x0 x1 : A41) (x3 : A44) (p q : Fin 4096) :
    val_main_v21 (F := Ideal) x0 x1 x3 (ix2 p q) = val_main_v19 (F := Ideal) x0 x1 x3 (ix1 p) := by
  refine (val_main_v21_apply x0 x1 x3 (ix2 p q)).trans ((val_main_v20_apply x0 x1 x3 _).trans ?_)
  exact congrArg (val_main_v19 (F := Ideal) x0 x1 x3) (funext fun a => Fin.ext (by match a with | ⟨0, _⟩ => rfl))

/-- The exponential of the shifted masked weight at (p, q). -/
theorem v23_apply (x0 x1 : A41) (x3 : A44) (p q : Fin 4096) :
    val_main_v23 (F := Ideal) x0 x1 x3 (ix2 p q)
      = Ideal.exp (val_main_v16 (F := Ideal) x0 x1 x3 (ix2 p q)
          - max negInfWord (rowMax (fun q' => val_main_v16 (F := Ideal) x0 x1 x3 (ix2 p q')))) := by
  refine (val_main_v23_apply x0 x1 x3 (ix2 p q)).trans ?_
  refine congrArg Ideal.exp ?_
  refine (val_main_v22_apply x0 x1 x3 (ix2 p q)).trans ?_
  refine congrArg (fun m => val_main_v16 (F := Ideal) x0 x1 x3 (ix2 p q) - m) ?_
  exact (v21_apply x0 x1 x3 p q).trans (v19_apply x0 x1 x3 p)

/-- The sum of the exponentials of row p, started from the zero word. -/
theorem v24_apply (x0 x1 : A41) (x3 : A44) (p : Fin 4096) :
    val_main_v24 (F := Ideal) x0 x1 x3 (ix1 p)
      = zeroWord + ∑ k : Fin 4096, val_main_v23 (F := Ideal) x0 x1 x3 (ix2 p k) := by
  refine (val_main_v24_apply x0 x1 x3 (ix1 p)).trans ?_
  refine congrArg (zeroWord + ·) (Finset.sum_congr rfl fun k _ => ?_)
  exact congrArg (val_main_v23 (F := Ideal) x0 x1 x3)
    (funext fun a => Fin.ext (by match a with | ⟨0, _⟩ => rfl | ⟨1, _⟩ => rfl))

/-- The sum of row p spread along the row. -/
theorem v26_apply (x0 x1 : A41) (x3 : A44) (p q : Fin 4096) :
    val_main_v26 (F := Ideal) x0 x1 x3 (ix2 p q) = val_main_v24 (F := Ideal) x0 x1 x3 (ix1 p) := by
  refine (val_main_v26_apply x0 x1 x3 (ix2 p q)).trans ((val_main_v25_apply x0 x1 x3 _).trans ?_)
  exact congrArg (val_main_v24 (F := Ideal) x0 x1 x3) (funext fun a => Fin.ext (by match a with | ⟨0, _⟩ => rfl))

/-- The second weights at (p, q) are the weights of the masked row. -/
theorem v27_apply (x0 x1 : A41) (x3 : A44) (p q : Fin 4096) :
    val_main_v27 (F := Ideal) x0 x1 x3 (ix2 p q)
      = weightsInit (fun q' => weightsInit (scoreDiv (fun k => x0 (ix2 p k)) (fun k q'' => x1 (ix2 q'' k))) q'
          * x3 (ix2 p q')) q := by
  refine (val_main_v27_apply x0 x1 x3 (ix2 p q)).trans ?_
  refine Eq.trans ?_ (congrArg (fun x => weightsInit x q) (funext fun q' => v16_apply x0 x1 x3 p q'))
  unfold weightsInit
  refine congrArg₂ Ideal.div (v23_apply x0 x1 x3 p q) ?_
  refine (v26_apply x0 x1 x3 p q).trans ((v24_apply x0 x1 x3 p).trans ?_)
  exact congrArg (zeroWord + ·) (Finset.sum_congr rfl fun k _ => v23_apply x0 x1 x3 p k)

end Ref

open Ref

/-! ## The output -/

/-- Entry (p, j) of the reference's output is the row formula with both weights shifted by their maxima. -/
theorem ref_row (x0 x1 x2 : (⟨S4096x1024, .f32⟩ : BufTy).Contents (Elt Ideal))
    (x3 : (⟨S4096x4096, .f32⟩ : BufTy).Contents (Elt Ideal)) (p : Fin 4096) (j : Fin 1024) :
    val_main_v28 (F := Ideal) x0 x1 x2 x3 (ix2 p j)
      = rowShiftTwice (fun k => x0 (ix2 p k)) (fun k q => x1 (ix2 q k)) (fun q j' => x2 (ix2 q j'))
          (fun q => x3 (ix2 p q)) j := by
  refine (val_main_v28_apply x0 x1 x2 x3 (ix2 p j)).trans ?_
  unfold rowShiftTwice
  refine Finset.sum_congr rfl fun q _ => ?_
  have el : lidx_main_v28 (ix2 p j) q = ix2 p q :=
    funext fun a => Fin.ext (by match a with | ⟨0, _⟩ => rfl | ⟨1, _⟩ => rfl)
  have er : ridx_main_v28 (ix2 p j) q = ix2 q j :=
    funext fun a => Fin.ext (by match a with | ⟨0, _⟩ => rfl | ⟨1, _⟩ => rfl)
  rw [el, er]
  exact congrArg (· * x2 (ix2 q j)) (v27_apply x0 x1 x3 p q)

end Cert.Attn

end
-- ==== Proof.SoftmaxLaw.lean ====
/-
  Laws of the extended reals that join two ways of writing a row of attention weights.

  The f32 words of -∞, of 1024 and of 1/32, read as extended reals; dividing by the square root of 1024
  is multiplying by 1/32, at every extended real. Products and finite sums of products of reals are
  reals; the maximum of finitely many reals over a nonempty index set, folded from -∞, is a real. For a
  row of reals x and a real M, the weights exp (x q - M) / Σ_k exp (x k - M) are reals and do not
  depend on M, because exp (r - μ) = exp r / exp μ and the factor cancels between numerator and sum.
-/
import Idealize.ShloMosaic.PureOps.Ideal
import Idealize.ShloMosaic.PureOps.Ideal.Laws
noncomputable section
namespace Cert.Attn
open Idealize.ShloMosaic

/-- The f32 pattern with the sign set, an all-ones exponent and a zero fraction denotes -∞. -/
theorem ofBits_negInf : (Ideal.ofBits .f32 0xFF800000#32 : EReal) = ⊥ := by
  simp [Ideal.ofBits, Ideal.ieee]

/-- The f32 pattern 0x44800000 denotes the real 1024 = 2 ^ 10. -/
theorem ofBits_1024 : (Ideal.ofBits .f32 0x44800000#32 : EReal) = ((1024 : ℝ) : EReal) := by
  simp [Ideal.ofBits, Ideal.ieee, -EReal.coe_mul]; norm_num

/-- The f32 pattern 0x3D000000 denotes the real 1 / 32 = 2 ^ (-5). -/
theorem ofBits_inv32 : (Ideal.ofBits .f32 0x3D000000#32 : EReal) = ((1 / 32 : ℝ) : EReal) := by
  simp [Ideal.ofBits, Ideal.ieee, -EReal.coe_mul]; norm_num

/-- Dividing by the square root of 1024, which is 32, is multiplying by 1 / 32, at every
    extended real (the infinities included). -/
theorem scale_eq (x : EReal) :
    Ideal.div x (Ideal.sqrt (Ideal.ofBits .f32 0x44800000#32))
      = x * (Ideal.ofBits .f32 0x3D000000#32 : EReal) := by
  have h32 : Real.sqrt 1024 = 32 := by
    rw [show (1024 : ℝ) = 32 ^ 2 by norm_num]
    exact Real.sqrt_sq (by norm_num)
  rw [ofBits_1024, ofBits_inv32, Ideal.sqrt_coe, if_neg (by norm_num), h32]
  exact Ideal.div_coe (by norm_num) x

/-- The coercion of the reals into the extended reals carries a finite sum to the sum of the
    coercions. -/
theorem coe_sum {κ : Type*} (s : Finset κ) (r : κ → ℝ) :
    ((∑ k ∈ s, r k : ℝ) : EReal) = ∑ k ∈ s, (r k : EReal) := by
  classical
  induction s using Finset.induction_on with
  | empty => simp
  | insert a s ha ih => rw [Finset.sum_insert ha, Finset.sum_insert ha, EReal.coe_add, ih]

/-- The product of two reals is a real. -/
theorem mul_real (a b : EReal) (ha : ∃ r : ℝ, a = r) (hb : ∃ r : ℝ, b = r) :
    ∃ r : ℝ, a * b = (r : EReal) := by
  obtain ⟨r, rfl⟩ := ha
  obtain ⟨s, rfl⟩ := hb
  exact ⟨r * s, (EReal.coe_mul r s).symm⟩

/-- A finite sum of products of reals is a real. -/
theorem sum_mul_real {κ : Type*} [Fintype κ] (f g : κ → EReal) (hf : ∀ k, ∃ r : ℝ, f k = r)
    (hg : ∀ k, ∃ r : ℝ, g k = r) : ∃ r : ℝ, (∑ k, f k * g k) = (r : EReal) := by
  choose r hr using hf
  choose s hs using hg
  refine ⟨∑ k, r k * s k, ?_⟩
  rw [coe_sum]
  exact Finset.sum_congr rfl fun k _ => by rw [hr k, hs k, EReal.coe_mul]

/-- The maximum of finitely many reals, over a nonempty index type and started from -∞, is a
    real: it is above -∞ because some entry is, and below +∞ because every entry is. -/
theorem fold_max_real {ι : Type*} [Fintype ι] [Nonempty ι] (x : ι → EReal)
    (hx : ∀ q, ∃ r : ℝ, x q = r) :
    ∃ r : ℝ, (Finset.univ : Finset ι).fold max (⊥ : EReal) x = (r : EReal) := by
  have hbot : (Finset.univ : Finset ι).fold max (⊥ : EReal) x ≠ ⊥ := by
    refine ne_of_gt ((Finset.lt_fold_max _).2 (Or.inr ?_))
    obtain ⟨q⟩ := ‹Nonempty ι›
    obtain ⟨r, hr⟩ := hx q
    exact ⟨q, Finset.mem_univ q, by rw [hr]; exact EReal.bot_lt_coe r⟩
  have htop : (Finset.univ : Finset ι).fold max (⊥ : EReal) x ≠ ⊤ := by
    refine ne_of_lt ((Finset.fold_max_lt _).2 ⟨bot_lt_top, fun q _ => ?_⟩)
    obtain ⟨r, hr⟩ := hx q
    rw [hr]; exact EReal.coe_lt_top r
  exact ⟨_, (EReal.coe_toReal htop hbot).symm⟩

/-- With real entries r and a real shift μ, the shifted softmax at q is the real
    exp (r q - μ) * (1 / ∑ k, exp (r k - μ)): the denominator is a positive real. -/
theorem softmax_coe {ι : Type*} [Fintype ι] (r : ι → ℝ) (μ : ℝ) (q : ι) :
    Ideal.div (Ideal.exp ((r q : EReal) - (μ : EReal))) (∑ k, Ideal.exp ((r k : EReal) - (μ : EReal)))
      = ((Real.exp (r q - μ) * (1 / ∑ k, Real.exp (r k - μ)) : ℝ) : EReal) := by
  have hpos : (0 : ℝ) < ∑ k, Real.exp (r k - μ) :=
    Finset.sum_pos (fun k _ => Real.exp_pos _) ⟨q, Finset.mem_univ q⟩
  have hsum : (∑ k, Ideal.exp ((r k : EReal) - (μ : EReal)))
      = ((∑ k, Real.exp (r k - μ) : ℝ) : EReal) := by
    rw [coe_sum]
    exact Finset.sum_congr rfl fun k _ => by rw [← EReal.coe_sub, Ideal.exp_coe]
  rw [hsum, Ideal.div_coe hpos.ne', ← EReal.coe_sub, Ideal.exp_coe, ← EReal.coe_mul]

/-- The softmax of real entries, shifted by a real, is a real. -/
theorem softmax_real {ι : Type*} [Fintype ι] (x : ι → EReal) (hx : ∀ q, ∃ r : ℝ, x q = r)
    (M : EReal) (hM : ∃ r : ℝ, M = r) (q : ι) :
    ∃ r : ℝ, Ideal.div (Ideal.exp (x q - M)) (∑ k, Ideal.exp (x k - M)) = (r : EReal) := by
  choose r hr using hx
  obtain ⟨μ, rfl⟩ := hM
  obtain rfl : x = fun k => (r k : EReal) := funext hr
  exact ⟨_, softmax_coe r μ q⟩

/-- The softmax of real entries does not change when a real is subtracted from every entry:
    exp (r - μ) = exp r / exp μ, and the factor 1 / exp μ cancels between numerator and
    denominator. -/
theorem softmax_shift {ι : Type*} [Fintype ι] (x : ι → EReal) (hx : ∀ q, ∃ r : ℝ, x q = r)
    (M : EReal) (hM : ∃ r : ℝ, M = r) (q : ι) :
    Ideal.div (Ideal.exp (x q - M)) (∑ k, Ideal.exp (x k - M))
      = Ideal.div (Ideal.exp (x q)) (∑ k, Ideal.exp (x k)) := by
  choose r hr using hx
  obtain ⟨μ, rfl⟩ := hM
  obtain rfl : x = fun k => (r k : EReal) := funext hr
  have h0 := softmax_coe r 0 q
  simp only [EReal.coe_zero, sub_zero] at h0
  rw [softmax_coe r μ q, h0]
  congr 1
  have hpos : (0 : ℝ) < ∑ k, Real.exp (r k) :=
    Finset.sum_pos (fun k _ => Real.exp_pos _) ⟨q, Finset.mem_univ q⟩
  have hsum : (∑ k, Real.exp (r k - μ)) = (∑ k, Real.exp (r k)) / Real.exp μ := by
    rw [Finset.sum_div]
    exact Finset.sum_congr rfl fun k _ => Real.exp_sub _ _
  rw [hsum, Real.exp_sub]
  have hμ : Real.exp μ ≠ 0 := (Real.exp_pos μ).ne'
  field_simp

end Cert.Attn
end
-- ==== Proof.RowLaw.lean ====
/-
  One output row of the attention layer: shifting both weight rows by their maxima gives the same
  row as shifting only the first.

  Dividing a score by the square root of 1024 is multiplying it by 1/32. A maximum taken once more
  against -∞ is unchanged, and a sum started from zero is the sum, so the weights written with those
  two initial values are the weights shifted by the row maximum. When the query row, the keys and the
  mask row are real, the scores are real, so their maximum and their weights are real, and so are the
  weights times the mask; weights of a real row do not depend on a real shift, hence the second
  weights, shifted by their maximum, are the unshifted ones. The two weighted sums of the values then
  agree term by term; nothing is asked of the values.
-/
import proofs.«146398_j7172595384925_2_alg».proof.Proof.Spec
import proofs.«146398_j7172595384925_2_alg».proof.Proof.SoftmaxLaw
import Idealize.ShloMosaic.PureOps.Ideal.Laws
noncomputable section
namespace Cert.Attn
open Idealize.ShloMosaic

/-- The scores divided by the square root of 1024 are the scores multiplied by 1/32. -/
theorem scoreDiv_eq (h : Fin 1024 → EReal) (kt : Fin 1024 → Fin 4096 → EReal) :
    scoreDiv h kt = scoreMul h kt :=
  funext fun _ => scale_eq _

/-- A maximum taken once more against -∞ is itself and a sum started from zero is the sum: the
    weights written with those initial values are the weights shifted by the row maximum. -/
theorem weightsInit_eq (x : Fin 4096 → EReal) : weightsInit x = weights (rowMax x) x := by
  funext q
  have hb : negInfWord = ⊥ := ofBits_negInf
  have hz : zeroWord = 0 := Ideal.ofBits_zero_f32
  unfold weightsInit weights
  rw [hb, hz, max_eq_right bot_le, zero_add]

/-- The maximum of a row of 4096 reals is a real. -/
theorem rowMax_real (x : Fin 4096 → EReal) (hx : ∀ q, ∃ r : ℝ, x q = (r : EReal)) :
    ∃ r : ℝ, rowMax x = (r : EReal) := by
  have hb : negInfWord = ⊥ := ofBits_negInf
  unfold rowMax
  rw [hb]
  exact fold_max_real x hx

/-- With a real query row and real keys every score is a real: a finite sum of products of reals,
    times the real 1/32. -/
theorem score_real (h : Fin 1024 → EReal) (kt : Fin 1024 → Fin 4096 → EReal)
    (hh : ∀ k, ∃ r : ℝ, h k = (r : EReal)) (hkt : ∀ k q, ∃ r : ℝ, kt k q = (r : EReal)) (q : Fin 4096) :
    ∃ r : ℝ, scoreMul h kt q = (r : EReal) :=
  mul_real _ _ (sum_mul_real _ _ hh fun k => hkt k q) ⟨_, ofBits_inv32⟩

/-- With real inputs the first weights times the mask row are reals: the weights of a real row
    shifted by its real maximum are real, and so is their product with a real. -/
theorem masked_real (h : Fin 1024 → EReal) (kt : Fin 1024 → Fin 4096 → EReal) (mk : Fin 4096 → EReal)
    (hh : ∀ k, ∃ r : ℝ, h k = (r : EReal)) (hkt : ∀ k q, ∃ r : ℝ, kt k q = (r : EReal))
    (hmk : ∀ q, ∃ r : ℝ, mk q = (r : EReal)) (q : Fin 4096) :
    ∃ r : ℝ, weights (rowMax (scoreMul h kt)) (scoreMul h kt) q * mk q = (r : EReal) :=
  mul_real _ _
    (softmax_real _ (score_real h kt hh hkt) _ (rowMax_real _ (score_real h kt hh hkt)) q) (hmk q)

/-- With a real query row, real keys and a real mask row, the output row with both weight rows
    shifted by their maxima is the output row with only the first shifted. -/
theorem rowShiftTwice_eq_rowShiftOnce (h : Fin 1024 → EReal) (kt : Fin 1024 → Fin 4096 → EReal)
    (v : Fin 4096 → Fin 1024 → EReal) (mk : Fin 4096 → EReal)
    (hh : ∀ k, ∃ r : ℝ, h k = (r : EReal)) (hkt : ∀ k q, ∃ r : ℝ, kt k q = (r : EReal))
    (hmk : ∀ q, ∃ r : ℝ, mk q = (r : EReal)) (j : Fin 1024) :
    rowShiftTwice h kt v mk j = rowShiftOnce h kt v mk j := by
  have hx' := masked_real h kt mk hh hkt hmk
  unfold rowShiftTwice rowShiftOnce
  rw [scoreDiv_eq, weightsInit_eq (scoreMul h kt), weightsInit_eq]
  refine Finset.sum_congr rfl fun q _ => ?_
  congr 1
  exact softmax_shift _ hx' _ (rowMax_real _ hx') q

end Cert.Attn
end
-- ==== Proof.FiniteInputs.lean ====
/-
  From the finiteness predicate of four arrays to "every entry is a real number".

  The predicate is, for each array, the conjunction over all entries of |x| < +∞, and then the
  conjunction of the four bits. A conjunction that is 1 has every conjunct 1, and a reduction by "and"
  over all entries that is 1 met a 1 at every entry. The word 0x7F800000 is +∞, the absolute value is
  max x (-x), which is +∞ at both infinities, so an entry with |x| < +∞ is neither: it is a real.
-/
import proofs.«146398_j7172595384925_2_alg».proof.Pre_finite_inputs
import proofs.«146398_j7172595384925_2_alg».proof.Proof.Gen.Pre_finite_inputs
import Idealize.ShloMosaic.Lib.ReduceAll
import Idealize.ShloMosaic.Lib.ValueIdx
import Idealize.ShloMosaic.PureOps.Ideal.Laws
noncomputable section
namespace Cert.Attn
open Idealize.ShloMosaic

/-- The f32 pattern with the sign clear, an all-ones exponent and a zero fraction denotes +∞. -/
theorem ofBits_posInf : (Ideal.ofBits .f32 0x7F800000#32 : EReal) = ⊤ := by
  simp [Ideal.ofBits, Ideal.ieee]

/-- An extended real whose absolute value max x (-x) is below +∞ is a real: at -∞ and at +∞ the
    absolute value is +∞. -/
theorem real_of_abs_lt_inf (x : EReal)
    (h : Ideal.cmp .olt (max x (-x)) (Ideal.ofBits .f32 0x7F800000#32) = 1#1) :
    ∃ r : ℝ, x = (r : EReal) := by
  rw [ofBits_posInf] at h
  induction x using EReal.rec with
  | bot => simp [Ideal.cmp] at h
  | coe r => exact ⟨r, rfl⟩
  | top => simp [Ideal.cmp] at h

/-- The scalar shape has one index. -/
instance scalarIdx_subsingleton : Subsingleton Cert.Pre_finite_inputs.S_.Idx := ⟨fun a b => funext fun d => d.elim0⟩

/-- If the finiteness predicate holds of four arrays of extended reals — the conjunction, over the
    four arrays, of "every entry has absolute value below +∞" — then every entry of every array is a
    real: the conjunction of bits splits, each all-entries reduction by "and" that came out 1 met
    a 1 at every entry, and an entry whose absolute value is below +∞ is neither infinity. -/
theorem real_of_finite_inputs (a0 a1 a2 : FVec Ideal Cert.Pre_finite_inputs.S4096x1024 .f32)
    (a3 : FVec Ideal Cert.Pre_finite_inputs.S4096x4096 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
    (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  exact ⟨fun i => real_of_abs_lt_inf _ (Host.reduce_andi_all _ _ _ _ _ h0' i),
    fun i => real_of_abs_lt_inf _ (Host.reduce_andi_all _ _ _ _ _ h1 i),
    fun i => real_of_abs_lt_inf _ (Host.reduce_andi_all _ _ _ _ _ h2 i),
    fun i => real_of_abs_lt_inf _ (Host.reduce_andi_all _ _ _ _ _ h3 i)⟩

end Cert.Attn
end
-- ==== Proof.lean ====
/-
  The attention layer `out = softmax(softmax(H Kᵀ / √d) * mask) V` with `d = 1024`: the kernel against its plain
  reference, over the extended reals.

  The kernel walks 16 blocks of 256 query rows. For each row it forms the scores as inner products with the keys
  times `1/32`, shifts them by the row maximum, exponentiates and divides by the row sum (the first weights),
  multiplies by the mask row, exponentiates WITHOUT a shift and divides by the row sum (the second weights), and
  takes the weighted sum of the values. The reference divides the scores by `√1024`, and shifts both weight rows
  by their row maxima, each maximum taken once more against `-∞` and each sum started from zero.

  Both results are, row by row, one of the two row functions of Spec: the kernel's array is `rowShiftOnce` of the
  rows (KernelPay, KernelArr), the reference's is `rowShiftTwice` (RefRead). With finite inputs the two row
  functions agree (RowLaw): `x / √1024 = x · (1/32)` for every extended real; a maximum against `-∞` and a sum
  from zero change nothing; and the weights of a row of REAL numbers do not depend on the shift, because
  `exp (r - μ) = exp r / exp μ` cancels between numerator and sum — this is where finiteness of the queries, keys
  and mask is used (FiniteInputs); nothing is asked of the values. Changes of float format are the identity on
  the extended reals. The three frames are the generated ones, and there is no rewrite to preserve.
-/
import proofs.«146398_j7172595384925_2_alg».proof.Defs
import proofs.«146398_j7172595384925_2_alg».proof.Proof.Gen.Kernel
import proofs.«146398_j7172595384925_2_alg».proof.Proof.Gen.Kernel.Skeleton
import proofs.«146398_j7172595384925_2_alg».proof.Proof.Gen.Kernel.Launch
import proofs.«146398_j7172595384925_2_alg».proof.Proof.Gen.Kernel.Points
import proofs.«146398_j7172595384925_2_alg».proof.Proof.Gen.Kernel.Frame
import proofs.«146398_j7172595384925_2_alg».proof.Proof.Gen.KernelIdeal
import proofs.«146398_j7172595384925_2_alg».proof.Proof.Gen.KernelIdeal.Skeleton
import proofs.«146398_j7172595384925_2_alg».proof.Proof.Gen.KernelIdeal.Launch
import proofs.«146398_j7172595384925_2_alg».proof.Proof.Gen.KernelIdeal.Points
import proofs.«146398_j7172595384925_2_alg».proof.Proof.Gen.KernelIdeal.Frame
import proofs.«146398_j7172595384925_2_alg».proof.Proof.Gen.ReferenceIdeal
import proofs.«146398_j7172595384925_2_alg».proof.Proof.Gen.Pre_finite_inputs
import proofs.«146398_j7172595384925_2_alg».proof.Proof.Gen.KernelIdeal.Value
import proofs.«146398_j7172595384925_2_alg».proof.Proof.Gen.ReferenceIdeal.Run
import proofs.«146398_j7172595384925_2_alg».proof.Proof.Gen.ReferenceIdeal.Read
import proofs.«146398_j7172595384925_2_alg».proof.Proof.KernelArr
import proofs.«146398_j7172595384925_2_alg».proof.Proof.RefRead
import proofs.«146398_j7172595384925_2_alg».proof.Proof.RowLaw
import proofs.«146398_j7172595384925_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel as printed runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its arguments as they were: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten, so there is nothing to preserve. -/
theorem preserves : Cert.preserves_Kernel_KernelIdeal := trivial

/-- From arguments that agree and are finite, the kernel's output array and the reference's result are the same
    array: row `p`, column `j` of the first is `rowShiftOnce` of row `p`, of the second `rowShiftTwice`, and
    the two agree on real rows. -/
theorem algebraic : Cert.algebraic_KernelIdeal_ReferenceIdeal := by
  intro m ρ m' ρ' hpre hagree
  refine ⟨fun c => Cert.Attn.outOf (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.Attn.kernel_run m ρ, ?_⟩
  refine (θ_run Cert.ReferenceIdeal.defs _ _).mono (fun _ h c => ⟨(h c).1.trans ?_, (h c).2⟩)
    (Cert.ReferenceIdeal.Value.run (F := Ideal) m' ρ')
  obtain ⟨hH, hK, -, hM⟩ := Cert.Attn.real_of_finite_inputs _ _ _ _ (hpre c)
  rw [Cert.ReferenceIdeal.Read.val_main_v28_eq, (hagree c).1, (hagree c).2.1, (hagree c).2.2.1, (hagree c).2.2.2]
  funext i
  obtain ⟨p, j, rfl⟩ : ∃ (p : Fin 4096) (j : Fin 1024), i = ix2 p j := ⟨i 0, i 1, eq_ix2 i⟩
  rw [Cert.Attn.ref_row]
  exact Cert.Attn.rowShiftTwice_eq_rowShiftOnce _ _ _ _ (fun k => hH _) (fun k q => hK _) (fun q => hM _) j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
